-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x4096 : Shape := ⟨2, ![128, 4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  main_v18

def fn {F : FTy → Type} [FloatOps F] (main_arg0 : FVec F S4096x128 .f32) (main_arg1 : FVec F S4096x4096 .f32) (main_arg2 : FVec F S128x4096 .f32) (main_arg3 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_v13 main_v16
-- ==== Kernel.lean ====
abbrev S4096x128 : Shape := ⟨2, ![4096, 128]⟩
abbrev S4096x4096 : Shape := ⟨2, ![4096, 4096]⟩
abbrev S128x4096 : Shape := ⟨2, ![128, 4096]⟩
abbrev S4096x256 : Shape := ⟨2, ![4096, 256]⟩
abbrev S512x4096 : Shape := ⟨2, ![512, 4096]⟩
abbrev S512x256 : Shape := ⟨2, ![512, 256]⟩
abbrev S128x128 : Shape := ⟨2, ![128, 128]⟩
abbrev S512x128 : Shape := ⟨2, ![512, 128]⟩

abbrev nBuf : Space → Nat
  | .hbm => 8
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x4096, .f32⟩
  | .hbm, ⟨3, _⟩ => ⟨S4096x128, .f32⟩
  | .hbm, ⟨4, _⟩ => ⟨S4096x256, .f32⟩
  | .hbm, ⟨5, _⟩ => ⟨S4096x256, .f32⟩
  | .hbm, ⟨6, _⟩ => ⟨S4096x128, .f32⟩
  | .hbm, ⟨7, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | .local _ .vmem, ⟨5, _⟩ => ⟨S4096x256, .f32⟩
  | .local _ .vmem, ⟨6, _⟩ => ⟨S128x4096, .f32⟩
  | .local _ .vmem, ⟨7, _⟩ => ⟨S4096x128, .f32⟩
  | .local _ .vmem, ⟨8, _⟩ => ⟨S512x256, .f32⟩
  | .local _ .vmem, ⟨9, _⟩ => ⟨S512x256, .f32⟩
  | .local _ .vmem, ⟨10, _⟩ => ⟨S128x4096, .f32⟩
  | .local _ .vmem, ⟨11, _⟩ => ⟨S512x4096, .f32⟩
  | .local _ .vmem, ⟨12, _⟩ => ⟨S512x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0_1 : Ref sig .tc := ⟨.hbm, 6, rfl⟩
abbrev main_v0_0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S4096x128_S4096x128_S4096x256_d1 : Shape.Concatenates [S4096x128, S4096x128] S4096x256 1
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  inb_S128x4096_S128x4096_0_0 : ∀ a, (![0, 0] : Fin 2 → Nat) a + S128x4096.size a ≤ S128x4096.size a
  h_S128x4096 : 0 < S128x4096.numel
  inb_S4096x256_S4096x128_0_128 : ∀ a, (![0, 128] : Fin 2 → Nat) a + S4096x128.size a ≤ S4096x256.size a
  h_S4096x128 : 0 < S4096x128.numel
  shapeCasts_S4096x128_S4096x128 : S4096x128.ShapeCasts S4096x128
  inb_S4096x256_S4096x128_0_0 : ∀ a, (![0, 0] : Fin 2 → Nat) a + S4096x128.size a ≤ S4096x256.size a
  inb_S4096x128_S4096x128_0_0 : ∀ a, (![0, 0] : Fin 2 → Nat) a + S4096x128.size a ≤ S4096x128.size a
  inb_S512x256_S512x128_0_0 : ∀ a, (![0, 0] : Fin 2 → Nat) a + S512x128.size a ≤ S512x256.size a
  h_S512x128 : 0 < S512x128.numel
  shapeCasts_S512x128_S512x128 : S512x128.ShapeCasts S512x128
  dot_S512x4096_S4096x256_S512x256_1_0_0_1_n_n_wf : DotDims.WF S512x4096 S4096x256 S512x256 [1] [0] [0] [1] [] []
  dot_S128x4096_S4096x128_S128x128_1_0_0_1_n_n_wf : DotDims.WF S128x4096 S4096x128 S128x128 [1] [0] [0] [1] [] []
  dot_S4096x128_S128x128_S4096x128_1_0_0_1_n_n_wf : DotDims.WF S4096x128 S128x128 S4096x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4096.size a ≤ S128x4096.size a
  hwx2_1 : ∀ i : grid2.Coords, EltTy.bits .f32 = 32 ∨ (Rect.block (s := S128x4096) S128x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S4096x4096.size a
  hwx2_2 : ∀ i : grid2.Coords, EltTy.bits .f32 = 32 ∨ (Rect.block (s := S4096x4096) S512x4096.size (cc2_transform_2 i) (hinb2_2 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_call0_v1) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v0_1) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v1) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S512x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x4096 : Shape := ⟨2, ![128, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x4096, .f32⟩
  | .hbm, ⟨3, _⟩ => ⟨S4096x128, .f32⟩
  | .hbm, ⟨4, _⟩ => ⟨S4096x4096, .f32⟩
  | .hbm, ⟨5, _⟩ => ⟨S4096x4096, .f32⟩
  | .hbm, ⟨6, _⟩ => ⟨S4096x128, .f32⟩
  | .hbm, ⟨7, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S4096x128_S128x4096_S4096x4096_1_0_0_1_n_n_wf : DotDims.WF S4096x128 S128x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x128_S4096x128_1_0_0_1_n_n_wf : DotDims.WF S4096x4096 S4096x128 S4096x128 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.OutputRun.lean ====
/-
  The idealized kernel's run with its two result buffers named.

  @main is a host concatenation followed by three pallas_calls. The generated frame follows the contents of every
  buffer through these four segments: `W0` at launch, `W1` after the concatenation, and `W2`, `W3`, `W4` after
  the first, second and third call, each call replacing its own arrays by what its write-backs leave and keeping
  every other buffer. The frame keeps only the argument arrays of the last boundary; here the same launch is read
  at the two result buffers as well: every weakly fair execution terminates with `x_latent` and `x_recon` at
  their contents in `W4`, and the arguments as launched.
-/
import proofs.«117277_g65627100283412_cont_sun_m_691_13_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with both result buffers at the last
    boundary's contents and the argument arrays as launched. -/
theorem run_results : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Out

end
-- ==== Proof.LibMatrixProd.lean ====
/-
  Matrix products on the extended reals, entry by entry, and their associativity for arrays of real numbers.

  `prod x y` is the product of an a×k array with a k×b array over literal rank-2 shapes: its entry (p, q) is the
  sum over the inner coordinate l of x(p, l) · y(l, q). `cols b off h x` is the a×b array of the columns
  off … off + b − 1 of an a×n array. `IsReal x` says every entry of x is a real number.

  On the extended reals (x · y) · z = x · (y · z) fails at the infinities: it moves a factor across a sum. For
  real-valued arrays both sides are the coercion of one real double sum, by distributivity and the exchange of two
  finite sums (`prod_assoc`, over `vec_mat_vec`); a product of real-valued arrays is real-valued (`prod_isReal`), so
  the law applies to products of products. The columns of a product are the product with the columns (`cols_prod`),
  for any arrays. `coe_sum`: the coercion ℝ → EReal commutes with a finite sum.
-/
import Idealize.ShloMosaic.PureOps.Ideal
import Idealize.ShloMosaic.Lib.ValueIdx
import Mathlib.Data.EReal.Operations
import Mathlib.Algebra.BigOperators.Ring.Finset
import Mathlib.Algebra.BigOperators.Group.Finset.Sigma
import Mathlib.Tactic.Ring

noncomputable section

namespace Cert.Matrices

open Idealize.ShloMosaic Idealize.ShloMosaic.ValueIdx

/-- Entry `i` of the product of an a×k array with a k×b array. -/
def prod {a k b : Nat} (x : (⟨2, ![a, k]⟩ : Shape).Idx → EReal) (y : (⟨2, ![k, b]⟩ : Shape).Idx → EReal) :
    (⟨2, ![a, b]⟩ : Shape).Idx → EReal :=
  fun i => ∑ l : Fin k, x (ix2 (i 0) l) * y (ix2 l (i 1))

/-- The product at any index, by its two coordinates. -/
theorem prod_eq {a k b : Nat} (x : (⟨2, ![a, k]⟩ : Shape).Idx → EReal) (y : (⟨2, ![k, b]⟩ : Shape).Idx → EReal)
    (i : (⟨2, ![a, b]⟩ : Shape).Idx) : prod x y i = ∑ l : Fin k, x (ix2 (i 0) l) * y (ix2 l (i 1)) := rfl

/-- The product at the index of row p and column q. -/
theorem prod_apply {a k b : Nat} (x : (⟨2, ![a, k]⟩ : Shape).Idx → EReal) (y : (⟨2, ![k, b]⟩ : Shape).Idx → EReal)
    (p : Fin a) (q : Fin b) : prod x y (ix2 p q) = ∑ l : Fin k, x (ix2 p l) * y (ix2 l q) := rfl

/-- The columns `off … off + b − 1` of an a×n array, as an a×b array. -/
def cols {a n : Nat} (b off : Nat) (h : off + b ≤ n) (x : (⟨2, ![a, n]⟩ : Shape).Idx → EReal) :
    (⟨2, ![a, b]⟩ : Shape).Idx → EReal :=
  fun i => x (ix2 (i 0) ⟨off + (i 1).val, by have := (i 1).isLt; simp at this; omega⟩)

/-- Column q of the selected columns is column off + q of the array. -/
theorem cols_apply {a n : Nat} (b off : Nat) (h : off + b ≤ n) (x : (⟨2, ![a, n]⟩ : Shape).Idx → EReal)
    (p : Fin a) (q : Fin b) : cols b off h x (ix2 p q) = x (ix2 p ⟨off + q.val, by have := q.isLt; omega⟩) := rfl

/-- Every entry of the array is a real number. -/
def IsReal {s : Shape} (x : s.Idx → EReal) : Prop := ∀ i, ∃ r : ℝ, x i = (r : EReal)

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A vector through a matrix and against a second vector, bracketed either way: for real u, M, v,
    ∑_b (∑_a u_a · M_ab) · v_b = ∑_a u_a · (∑_b M_ab · v_b) in the extended reals. -/
theorem vec_mat_vec {α β : Type*} [Fintype α] [Fintype β] (u : α → ℝ) (M : α → β → ℝ) (v : β → ℝ) :
    ∑ b, (∑ a, (u a : EReal) * (M a b : EReal)) * (v b : EReal)
      = ∑ a, (u a : EReal) * ∑ b, (M a b : EReal) * (v b : EReal) := by
  simp only [← EReal.coe_mul, ← coe_sum]
  refine congrArg _ ?_
  simp only [Finset.mul_sum, Finset.sum_mul]
  rw [Finset.sum_comm]
  exact Finset.sum_congr rfl fun a _ => Finset.sum_congr rfl fun b _ => by ring

/-- The product of two real-valued arrays is real-valued. -/
theorem prod_isReal {a k b : Nat} {x : (⟨2, ![a, k]⟩ : Shape).Idx → EReal} {y : (⟨2, ![k, b]⟩ : Shape).Idx → EReal}
    (hx : IsReal x) (hy : IsReal y) : IsReal (prod x y) := by
  choose fx hfx using hx
  choose fy hfy using hy
  intro i
  refine ⟨∑ l : Fin k, fx (ix2 (i 0) l) * fy (ix2 l (i 1)), ?_⟩
  rw [prod_eq, coe_sum]
  refine Finset.sum_congr rfl fun l _ => ?_
  rw [hfx, hfy, EReal.coe_mul]

/-- (x · y) · z = x · (y · z) for real-valued arrays. -/
theorem prod_assoc {a k n b : Nat} {x : (⟨2, ![a, k]⟩ : Shape).Idx → EReal} {y : (⟨2, ![k, n]⟩ : Shape).Idx → EReal}
    {z : (⟨2, ![n, b]⟩ : Shape).Idx → EReal} (hx : IsReal x) (hy : IsReal y) (hz : IsReal z) :
    prod (prod x y) z = prod x (prod y z) := by
  choose fx hfx using hx
  choose fy hfy using hy
  choose fz hfz using hz
  funext i
  obtain ⟨p, q, rfl⟩ : ∃ (p : Fin a) (q : Fin b), i = ix2 p q := ⟨i 0, i 1, eq_ix2 i⟩
  rw [prod_apply, prod_apply]
  simp only [prod_apply, hfx, hfy, hfz]
  exact vec_mat_vec (fun j : Fin k => fx (ix2 p j)) (fun (j : Fin k) (l : Fin n) => fy (ix2 j l)) (fun l : Fin n => fz (ix2 l q))

/-- The columns of a product are the product with the columns. -/
theorem cols_prod {a k n : Nat} (b off : Nat) (h : off + b ≤ n) (x : (⟨2, ![a, k]⟩ : Shape).Idx → EReal)
    (y : (⟨2, ![k, n]⟩ : Shape).Idx → EReal) : cols b off h (prod x y) = prod x (cols b off h y) := by
  funext i
  obtain ⟨p, q, rfl⟩ : ∃ (p : Fin a) (q : Fin b), i = ix2 p q := ⟨i 0, i 1, eq_ix2 i⟩
  rfl

end Cert.Matrices

end
-- ==== Proof.Block0.lean ====
/-
  The first pallas_call: AB = adj · B, row block by row block.

  Grid point t stages rows 512t … 512t + 511 of adj and the whole of B (the host's concatenation [feat | W_dec]),
  multiplies them into a zero accumulator, and writes the 512×256 product back as rows 512t … 512t + 511 of AB.
  Read on the extended reals the product's entry (p, q) is the sum over k of adj-block(p, k) · B(k, q), so what
  point t writes back is block t of the one array `prod adj B`; the eight blocks tile AB.
-/
import proofs.«117277_g65627100283412_cont_sun_m_691_13_alg».proof.Proof.Gen.KernelIdeal.Frame
import proofs.«117277_g65627100283412_cont_sun_m_691_13_alg».proof.Proof.LibMatrixProd
import Idealize.ShloMosaic.Lib.Pipeline.Value
import Idealize.ShloMosaic.Lib.ValueIdx
import Idealize.ShloMosaic.PureOps.Ideal.Laws

set_option maxRecDepth 16384

noncomputable section

namespace Cert.KernelIdeal.Call0

open Cert.KernelIdeal Cert.KernelIdeal.Gen Cert.Matrices
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Off the contracted axis the left operand is read on the result's row, -/
theorem lhs_row (i : S512x256.Idx) (r : dot_S512x4096_S4096x256_S512x256_1_0_0_1_n_n.contr.Idx) :
    (dot_S512x4096_S4096x256_S512x256_1_0_0_1_n_n.lhsIdx i r 0).val = (i 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
/-- and the right operand on the result's column. -/
theorem rhs_col (i : S512x256.Idx) (r : dot_S512x4096_S4096x256_S512x256_1_0_0_1_n_n.contr.Idx) :
    (dot_S512x4096_S4096x256_S512x256_1_0_0_1_n_n.rhsIdx i r 1).val = (i 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

/-- The body's product at entry (p, q): the sum over the 4096 inner coordinates. -/
theorem pay_apply (x0 : FVec Ideal S512x4096 .f32) (x1 : FVec Ideal S4096x256 .f32) (p : Fin 512) (q : Fin 256) :
    k0_pay1 (F := Ideal) x0 x1 (ix2 p q) = ∑ k : Fin 4096, x0 (ix2 p k) * x1 (ix2 k q) := by
  unfold k0_pay1
  rw [shapeCast_self]
  refine (Ideal.matmul_constant_zero_apply dot_S512x4096_S4096x256_S512x256_1_0_0_1_n_n none x0 x1 (ix2 p q)).trans ?_
  rw [← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k :=
    funext fun a => Fin.ext (by
      match a with
      | ⟨0, _⟩ => exact lhs_row _ _
      | ⟨1, _⟩ => exact (dot_S512x4096_S4096x256_S512x256_1_0_0_1_n_n.lhsIdx_val_of_single rfl _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q :=
    funext fun a => Fin.ext (by
      match a with
      | ⟨0, _⟩ => exact (dot_S512x4096_S4096x256_S512x256_1_0_0_1_n_n.rhsIdx_val_of_single rfl _ _).trans hk
      | ⟨1, _⟩ => exact rhs_col _ _)
  rw [el, er]

variable (V : (c : Dev nD) → (b : Ref sig .tc) → Buf (Elt Ideal) ((c : Thread nD τ).loc b))

/-- The array the call leaves: adj · B, over the two arrays as the call finds them. -/
abbrev AB (c : Dev nD) : S4096x256.Idx → EReal :=
  prod (V c main_arg1 : S4096x4096.Idx → EReal) (V c main_call0_v0 : S4096x256.Idx → EReal)

/-- The printed index maps over the eight grid points: adj's and AB's blocks move down with the point, B's stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p, column k of adj's block at point t is adj at row 512t + p, column k. -/
theorem adj_block (c : Dev nD) (t : Fin cfg0.N) (p : Fin 512) (k : Fin 4096) (i : S4096x4096.Idx)
    (h0 : (i 0).val = t.val * 512 + p.val) (h1 : (i 1).val = k.val) :
    (iblk0 V c 0 t : Vec Ideal S512x4096 .f32) (ix2 p k) = (V c main_arg1 : S4096x4096.Idx → EReal) i := by
  obtain ⟨e0, e1, -, -, -, -⟩ := idx_facts t
  unfold iblk0
  rw [View.read_apply]
  show (V c main_arg1 : S4096x4096.Idx → EReal) _ = _
  refine congrArg _ (funext fun a => Fin.ext ?_)
  match a with
  | ⟨0, _⟩ => show win0_0.index t (0 : Fin 2) * 512 + 1 * p.val = (i 0).val; omega
  | ⟨1, _⟩ => show win0_0.index t (1 : Fin 2) * 4096 + 1 * k.val = (i 1).val; omega

/-- B's block at every point is B. -/
theorem b_block (c : Dev nD) (t : Fin cfg0.N) (k : Fin 4096) (q : Fin 256) :
    (iblk0 V c 1 t : Vec Ideal S4096x256 .f32) (ix2 k q) = (V c main_call0_v0 : S4096x256.Idx → EReal) (ix2 k q) := by
  obtain ⟨-, -, e2, e3, -, -⟩ := idx_facts t
  unfold iblk0
  rw [View.read_apply]
  show (V c main_call0_v0 : S4096x256.Idx → EReal) _ = _
  refine congrArg _ (funext fun a => Fin.ext ?_)
  match a with
  | ⟨0, _⟩ => show win0_1.index t (0 : Fin 2) * 4096 + 1 * k.val = k.val; omega
  | ⟨1, _⟩ => show win0_1.index t (1 : Fin 2) * 256 + 1 * q.val = q.val; omega

/-- What point t writes back is block t of adj · B. -/
theorem flushed_eq (c : Dev nD) (t : Fin cfg0.N) :
    (dat0 V c).flushed 2 t = ((cfg0.win 2).blk t).view.read (Elt Ideal) (AB V c) := by
  show (cfg0.win 2).cut (grid0.coords t) ((dat0 V c).after 2 t) = _
  rw [after0_2]
  unfold out0_2
  rw [View.canon_unit_zero hz]
  simp only [View.ld_unit_zero (S := S512x4096) hz, View.ld_unit_zero (S := S4096x256) hz]
  obtain ⟨-, -, -, -, e4, e5⟩ := idx_facts t
  funext y
  obtain ⟨p, q, rfl⟩ : ∃ (p : Fin 512) (q : Fin 256), y = ix2 p q := ⟨y 0, y 1, eq_ix2 y⟩
  rw [View.read_apply]
  show k0_pay1 (F := Ideal) (iblk0 V c 0 t) (iblk0 V c 1 t) (ix2 p q) = AB V c (((cfg0.win 2).blk t).view.emb (ix2 p q))
  rw [pay_apply]
  show _ = prod _ _ _
  rw [prod_eq]
  refine Finset.sum_congr rfl fun k _ => ?_
  rw [adj_block V c t p k (ix2 ((((cfg0.win 2).blk t).view.emb (ix2 p q)) 0) k)
      (by show win0_2.index t (0 : Fin 2) * 512 + 1 * p.val = _; omega) rfl, b_block V c t k q]
  refine congrArg _ (congrArg _ (funext fun a => Fin.ext ?_))
  match a with
  | ⟨0, _⟩ => rfl
  | ⟨1, _⟩ => show q.val = win0_2.index t (1 : Fin 2) * 256 + 1 * q.val; omega

/-- An index of AB lies in point t's block iff, on each axis, its coordinate is among the block's. -/
theorem mem_blk (t : Fin cfg0.N) (i : S4096x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_call0_v1).slice (win0_2.rect t)).set ↔ _
  rw [View.set_slice_whole, Rect.mem_set_unit]
  exact Iff.rfl

/-- Row r of AB is written back by point r / 512: the eight blocks tile the array. -/
theorem cover (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 8 := N_0
  refine ⟨⟨(i 0).val / 512, by rw [hN]; omega⟩, flush0_2 _, ?_⟩
  obtain ⟨-, -, -, -, e4, e5⟩ := idx_facts ⟨(i 0).val / 512, by rw [hN]; omega⟩
  rw [mem_blk]
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 256 ≤ (i 1).val ∧ (i 1).val < win0_2.index _ (1 : Fin 2) * 256 + 256
    rw [e5]; omega

/-- After its eight points the call's output array is adj · B. -/
theorem arr_eq (c : Dev nD) : (dat0 V c).arrAt 2 cfg0.N = AB V c :=
  (dat0 V c).arrAt_eq_of_cover 2 (AB V c) (fun t _ => flushed_eq V c t) cover

end Cert.KernelIdeal.Call0

end
-- ==== Proof.Block1.lean ====
/-
  The second pallas_call: x_recon = A · (W_enc · Y), in one step, where A and Y are the left and the right 128
  columns of AB.

  The call has no grid: its one point stages the whole of AB and of W_enc, loads Y = AB[:, 128:] and A = AB[:, :128],
  forms the 128×128 product M = W_enc · Y into a zero accumulator, then A · M into a zero accumulator, and writes
  the 4096×128 result back whole. On the extended reals entry (p, q) of the result is the sum over k of
  A(p, k) · (the sum over n of W_enc(k, n) · Y(n, q)): the array `prod (cols 128 0 AB) (prod W_enc (cols 128 128 AB))`.
-/
import proofs.«117277_g65627100283412_cont_sun_m_691_13_alg».proof.Proof.Gen.KernelIdeal.Frame
import proofs.«117277_g65627100283412_cont_sun_m_691_13_alg».proof.Proof.LibMatrixProd
import Idealize.ShloMosaic.Lib.Pipeline.Value
import Idealize.ShloMosaic.Lib.ValueIdx
import Idealize.ShloMosaic.PureOps.Ideal.Laws

set_option maxRecDepth 16384

noncomputable section

namespace Cert.KernelIdeal.Call1

open Cert.KernelIdeal Cert.KernelIdeal.Gen Cert.Matrices
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The inner product W_enc · Y -/

/-- Off the contracted axis the left operand is read on the result's row, -/
theorem inner_lhs_row (i : S128x128.Idx) (r : dot_S128x4096_S4096x128_S128x128_1_0_0_1_n_n.contr.Idx) :
    (dot_S128x4096_S4096x128_S128x128_1_0_0_1_n_n.lhsIdx i r 0).val = (i 0).val := by
  unfold DotDims.lhsIdx
  rw [dif_neg (show ¬(0 : Fin S128x4096.rank) ∈ dot_S128x4096_S4096x128_S128x128_1_0_0_1_n_n.lhsBatch by decide),
    dif_pos (show (0 : Fin S128x4096.rank) ∈ dot_S128x4096_S4096x128_S128x128_1_0_0_1_n_n.lhsNonContracting by decide)]
  rfl
/-- and the right operand on the result's column. -/
theorem inner_rhs_col (i : S128x128.Idx) (r : dot_S128x4096_S4096x128_S128x128_1_0_0_1_n_n.contr.Idx) :
    (dot_S128x4096_S4096x128_S128x128_1_0_0_1_n_n.rhsIdx i r 1).val = (i 1).val := by
  unfold DotDims.rhsIdx
  rw [dif_neg (show ¬(1 : Fin S4096x128.rank) ∈ dot_S128x4096_S4096x128_S128x128_1_0_0_1_n_n.rhsBatch by decide),
    dif_pos (show (1 : Fin S4096x128.rank) ∈ dot_S128x4096_S4096x128_S128x128_1_0_0_1_n_n.rhsNonContracting by decide)]
  rfl

/-- This product into a zero accumulator at entry (p, q): the sum over the 4096 inner coordinates. -/
theorem inner_apply (x0 : FVec Ideal S128x4096 .f32) (x1 : FVec Ideal S4096x128 .f32) (p : Fin 128) (q : Fin 128) :
    matmul (F := Ideal) dot_S128x4096_S4096x128_S128x128_1_0_0_1_n_n none x0 x1 (constant (F := Ideal) S128x128 .f32 0x00000000#32) (ix2 p q)
      = ∑ k : Fin 4096, x0 (ix2 p k) * x1 (ix2 k q) := by
  refine (Ideal.matmul_constant_zero_apply dot_S128x4096_S4096x128_S128x128_1_0_0_1_n_n none x0 x1 (ix2 p q)).trans ?_
  rw [← Equiv.sum_comp (ValueIdx.contrEquiv1 dot_S128x4096_S4096x128_S128x128_1_0_0_1_n_n 4096 rfl rfl).symm]
  refine Finset.sum_congr rfl fun k _ => ?_
  have hk := ValueIdx.contrEquiv1_symm_val dot_S128x4096_S4096x128_S128x128_1_0_0_1_n_n 4096 rfl rfl k
  have el : dot_S128x4096_S4096x128_S128x128_1_0_0_1_n_n.lhsIdx (ix2 p q) ((ValueIdx.contrEquiv1 dot_S128x4096_S4096x128_S128x128_1_0_0_1_n_n 4096 rfl rfl).symm k) = ix2 p k :=
    funext fun a => Fin.ext (by
      match a with
      | ⟨0, _⟩ => exact inner_lhs_row _ _
      | ⟨1, _⟩ => exact (dot_S128x4096_S4096x128_S128x128_1_0_0_1_n_n.lhsIdx_val_of_single rfl _ _).trans hk)
  have er : dot_S128x4096_S4096x128_S128x128_1_0_0_1_n_n.rhsIdx (ix2 p q) ((ValueIdx.contrEquiv1 dot_S128x4096_S4096x128_S128x128_1_0_0_1_n_n 4096 rfl rfl).symm k) = ix2 k q :=
    funext fun a => Fin.ext (by
      match a with
      | ⟨0, _⟩ => exact (dot_S128x4096_S4096x128_S128x128_1_0_0_1_n_n.rhsIdx_val_of_single rfl _ _).trans hk
      | ⟨1, _⟩ => exact inner_rhs_col _ _)
  rw [el, er]

/-! ## The outer product A · M -/

/-- Off the contracted axis the left operand is read on the result's row, -/
theorem outer_lhs_row (i : S4096x128.Idx) (r : dot_S4096x128_S128x128_S4096x128_1_0_0_1_n_n.contr.Idx) :
    (dot_S4096x128_S128x128_S4096x128_1_0_0_1_n_n.lhsIdx i r 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
/-- and the right operand on the result's column. -/
theorem outer_rhs_col (i : S4096x128.Idx) (r : dot_S4096x128_S128x128_S4096x128_1_0_0_1_n_n.contr.Idx) :
    (dot_S4096x128_S128x128_S4096x128_1_0_0_1_n_n.rhsIdx i r 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- This product into a zero accumulator at entry (p, q): the sum over the 128 inner coordinates. -/
theorem outer_apply (x0 : FVec Ideal S4096x128 .f32) (x1 : FVec Ideal S128x128 .f32) (p : Fin 4096) (q : Fin 128) :
    matmul (F := Ideal) dot_S4096x128_S128x128_S4096x128_1_0_0_1_n_n none x0 x1 (constant (F := Ideal) S4096x128 .f32 0x00000000#32) (ix2 p q)
      = ∑ k : Fin 128, x0 (ix2 p k) * x1 (ix2 k q) := by
  refine (Ideal.matmul_constant_zero_apply dot_S4096x128_S128x128_S4096x128_1_0_0_1_n_n none x0 x1 (ix2 p q)).trans ?_
  rw [← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k :=
    funext fun a => Fin.ext (by
      match a with
      | ⟨0, _⟩ => exact outer_lhs_row _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q :=
    funext fun a => Fin.ext (by
      match a with
      | ⟨0, _⟩ => exact (dot_S4096x128_S128x128_S4096x128_1_0_0_1_n_n.rhsIdx_val_of_single rfl _ _).trans hk
      | ⟨1, _⟩ => exact outer_rhs_col _ _)
  rw [el, er]

/-- The body's result at entry (p, q): the sum over k of A(p, k) times the sum over n of W_enc(k, n) · Y(n, q). -/
theorem pay_apply (w : FVec Ideal S128x4096 .f32) (y : FVec Ideal S4096x128 .f32) (a : FVec Ideal S4096x128 .f32)
    (p : Fin 4096) (q : Fin 128) :
    k1_pay1 (F := Ideal) w y a (ix2 p q)
      = ∑ k : Fin 128, a (ix2 p k) * ∑ n : Fin 4096, w (ix2 k n) * y (ix2 n q) := by
  unfold k1_pay1
  rw [shapeCast_self, shapeCast_self]
  refine (outer_apply a _ p q).trans ?_
  refine Finset.sum_congr rfl fun k _ => ?_
  rw [inner_apply]

/-- The body's load of the left 128 columns of the whole 4096×256 block, at (p, k): the block at (p, k). -/
theorem left_cols (X : Vec Ideal S4096x256 .f32) (p : Fin 4096) (k : Fin 128) :
    View.ld X r1_2 (ix2 p k) = X (ix2 p ⟨k.val, by have := k.isLt; omega⟩) := by
  show X (r1_2.idx (ix2 p k)) = _
  refine congrArg X (funext fun a => Fin.ext ?_)
  match a with
  | ⟨0, _⟩ => show 0 + 1 * p.val = p.val; omega
  | ⟨1, _⟩ => show 0 + 1 * k.val = k.val; omega

/-- The body's load of the right 128 columns, at (n, q): the block at (n, 128 + q). -/
theorem right_cols (X : Vec Ideal S4096x256 .f32) (n : Fin 4096) (q : Fin 128) :
    View.ld X r1_1 (ix2 n q) = X (ix2 n ⟨128 + q.val, by have := q.isLt; omega⟩) := by
  show X (r1_1.idx (ix2 n q)) = _
  refine congrArg X (funext fun a => Fin.ext ?_)
  match a with
  | ⟨0, _⟩ => show 0 + 1 * n.val = n.val; omega
  | ⟨1, _⟩ => show 128 + 1 * q.val = 128 + q.val; omega

variable (V : (c : Dev nD) → (b : Ref sig .tc) → Buf (Elt Ideal) ((c : Thread nD τ).loc b))

/-- The array the call leaves, over the two arrays as the call finds them. -/
abbrev XR (c : Dev nD) : S4096x128.Idx → EReal :=
  prod (cols 128 0 (by decide) (V c main_call0_v1 : S4096x256.Idx → EReal))
    (prod (V c main_arg2 : S128x4096.Idx → EReal) (cols 128 128 (by decide) (V c main_call0_v1 : S4096x256.Idx → EReal)))

/-- The call's one point reads and writes every window at block index zero. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- AB's block is AB. -/
theorem ab_block (c : Dev nD) (t : Fin cfg1.N) (p : Fin 4096) (k : Fin 256) :
    (iblk1 V c 0 t : Vec Ideal S4096x256 .f32) (ix2 p k) = (V c main_call0_v1 : S4096x256.Idx → EReal) (ix2 p k) := by
  obtain ⟨e0, e1, -, -, -, -⟩ := idx_facts t
  unfold iblk1
  rw [View.read_apply]
  show (V c main_call0_v1 : S4096x256.Idx → EReal) _ = _
  refine congrArg _ (funext fun a => Fin.ext ?_)
  match a with
  | ⟨0, _⟩ => show win1_0.index t (0 : Fin 2) * 4096 + 1 * p.val = p.val; omega
  | ⟨1, _⟩ => show win1_0.index t (1 : Fin 2) * 256 + 1 * k.val = k.val; omega

/-- W_enc's block is W_enc. -/
theorem w_block (c : Dev nD) (t : Fin cfg1.N) (k : Fin 128) (n : Fin 4096) :
    (iblk1 V c 1 t : Vec Ideal S128x4096 .f32) (ix2 k n) = (V c main_arg2 : S128x4096.Idx → EReal) (ix2 k n) := by
  obtain ⟨-, -, e2, e3, -, -⟩ := idx_facts t
  unfold iblk1
  rw [View.read_apply]
  show (V c main_arg2 : S128x4096.Idx → EReal) _ = _
  refine congrArg _ (funext fun a => Fin.ext ?_)
  match a with
  | ⟨0, _⟩ => show win1_1.index t (0 : Fin 2) * 128 + 1 * k.val = k.val; omega
  | ⟨1, _⟩ => show win1_1.index t (1 : Fin 2) * 4096 + 1 * n.val = n.val; omega

/-- What the one point writes back is the whole of A · (W_enc · Y). -/
theorem flushed_eq (c : Dev nD) (t : Fin cfg1.N) :
    (dat1 V c).flushed 2 t = ((cfg1.win 2).blk t).view.read (Elt Ideal) (XR V c) := by
  show (cfg1.win 2).cut (grid1.coords t) ((dat1 V c).after 2 t) = _
  rw [after1_2]
  unfold out1_2
  rw [View.canon_unit_zero hz]
  simp only [View.ld_unit_zero (S := S128x4096) hz]
  obtain ⟨-, -, -, -, e4, e5⟩ := idx_facts t
  funext y
  obtain ⟨p, q, rfl⟩ : ∃ (p : Fin 4096) (q : Fin 128), y = ix2 p q := ⟨y 0, y 1, eq_ix2 y⟩
  rw [View.read_apply]
  have hemb : (((cfg1.win 2).blk t).view.emb (ix2 p q) : S4096x128.Idx) = ix2 p q := funext fun a => Fin.ext (by
    match a with
    | ⟨0, _⟩ => show win1_2.index t (0 : Fin 2) * 4096 + 1 * p.val = p.val; omega
    | ⟨1, _⟩ => show win1_2.index t (1 : Fin 2) * 128 + 1 * q.val = q.val; omega)
  show k1_pay1 (F := Ideal) (iblk1 V c 1 t) (View.ld (iblk1 V c 0 t) r1_1) (View.ld (iblk1 V c 0 t) r1_2) (ix2 p q)
    = XR V c (((cfg1.win 2).blk t).view.emb (ix2 p q) : S4096x128.Idx)
  rw [pay_apply, hemb]
  show _ = prod _ _ (ix2 p q)
  rw [prod_apply]
  refine Finset.sum_congr rfl fun k _ => ?_
  rw [left_cols, ab_block V c t p ⟨k.val, by have := k.isLt; omega⟩, cols_apply]
  refine congrArg₂ (· * ·) (congrArg _ (funext fun a => Fin.ext (by
    match a with
    | ⟨0, _⟩ => rfl
    | ⟨1, _⟩ => show k.val = 0 + k.val; omega))) ?_
  rw [prod_apply]
  refine Finset.sum_congr rfl fun n _ => ?_
  rw [w_block V c t k n, right_cols, ab_block V c t n ⟨128 + q.val, by have := q.isLt; omega⟩, cols_apply]

/-- An index of x_recon lies in the one point's block iff, on each axis, its coordinate is among the block's. -/
theorem mem_blk (t : Fin cfg1.N) (i : S4096x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v0_1).slice (win1_2.rect t)).set ↔ _
  rw [View.set_slice_whole, Rect.mem_set_unit]
  exact Iff.rfl

/-- The one point's block is the whole array. -/
theorem cover (i : S4096x128.Idx) :
    ∃ t : Fin cfg1.N, (cfg1.win 2).flush t = true ∧ i ∈ ((cfg1.win 2).blk t).view.set := by
  have hi0 : (i 0).val < 4096 := (i 0).isLt
  have hi1 : (i 1).val < 128 := (i 1).isLt
  have hN : cfg1.N = 1 := N_1
  refine ⟨⟨0, by rw [hN]; omega⟩, flush1_2 _, ?_⟩
  obtain ⟨-, -, -, -, e4, e5⟩ := idx_facts ⟨0, by rw [hN]; omega⟩
  rw [mem_blk]
  intro a
  match a with
  | ⟨0, _⟩ =>
    show win1_2.index _ (0 : Fin 2) * 4096 ≤ (i 0).val ∧ (i 0).val < win1_2.index _ (0 : Fin 2) * 4096 + 4096
    rw [e4]; omega
  | ⟨1, _⟩ =>
    show win1_2.index _ (1 : Fin 2) * 128 ≤ (i 1).val ∧ (i 1).val < win1_2.index _ (1 : Fin 2) * 128 + 128
    rw [e5]; omega

/-- After its one point the call's output array is A · (W_enc · Y). -/
theorem arr_eq (c : Dev nD) : (dat1 V c).arrAt 2 cfg1.N = XR V c :=
  (dat1 V c).arrAt_eq_of_cover 2 (XR V c) (fun t _ => flushed_eq V c t) cover

end Cert.KernelIdeal.Call1

end
-- ==== Proof.Block2.lean ====
/-
  The third pallas_call: x_latent = A · W_enc, row block by row block, where A is the left 128 columns of AB.

  Grid point t stages rows 512t … 512t + 511 of AB and the whole of W_enc, loads the left 128 columns of the
  block, multiplies them with W_enc into a zero accumulator, and writes the 512×4096 product back as rows
  512t … 512t + 511 of x_latent. On the extended reals the product's entry (p, q) is the sum over the 128 inner
  coordinates k of AB-block(p, k) · W_enc(k, q): what point t writes back is block t of the one array
  `prod (cols 128 0 AB) W_enc`, and the eight blocks tile x_latent.
-/
import proofs.«117277_g65627100283412_cont_sun_m_691_13_alg».proof.Proof.Gen.KernelIdeal.Frame
import proofs.«117277_g65627100283412_cont_sun_m_691_13_alg».proof.Proof.LibMatrixProd
import Idealize.ShloMosaic.Lib.Pipeline.Value
import Idealize.ShloMosaic.Lib.ValueIdx
import Idealize.ShloMosaic.PureOps.Ideal.Laws

set_option maxRecDepth 16384

noncomputable section

namespace Cert.KernelIdeal.Call2

open Cert.KernelIdeal Cert.KernelIdeal.Gen Cert.Matrices
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Off the contracted axis the left operand is read on the result's row, -/
theorem lhs_row (i : S512x4096.Idx) (r : dot_S512x128_S128x4096_S512x4096_1_0_0_1_n_n.contr.Idx) :
    (dot_S512x128_S128x4096_S512x4096_1_0_0_1_n_n.lhsIdx i r 0).val = (i 0).val := by
  unfold DotDims.lhsIdx
  rw [dif_neg (show ¬(0 : Fin S512x128.rank) ∈ dot_S512x128_S128x4096_S512x4096_1_0_0_1_n_n.lhsBatch by decide),
    dif_pos (show (0 : Fin S512x128.rank) ∈ dot_S512x128_S128x4096_S512x4096_1_0_0_1_n_n.lhsNonContracting by decide)]
  rfl
/-- and the right operand on the result's column. -/
theorem rhs_col (i : S512x4096.Idx) (r : dot_S512x128_S128x4096_S512x4096_1_0_0_1_n_n.contr.Idx) :
    (dot_S512x128_S128x4096_S512x4096_1_0_0_1_n_n.rhsIdx i r 1).val = (i 1).val := by
  unfold DotDims.rhsIdx
  rw [dif_neg (show ¬(1 : Fin S128x4096.rank) ∈ dot_S512x128_S128x4096_S512x4096_1_0_0_1_n_n.rhsBatch by decide),
    dif_pos (show (1 : Fin S128x4096.rank) ∈ dot_S512x128_S128x4096_S512x4096_1_0_0_1_n_n.rhsNonContracting by decide)]
  rfl

/-- The body's product at entry (p, q): the sum over the 128 inner coordinates. -/
theorem pay_apply (x0 : FVec Ideal S512x128 .f32) (x1 : FVec Ideal S128x4096 .f32) (p : Fin 512) (q : Fin 4096) :
    k2_pay1 (F := Ideal) x0 x1 (ix2 p q) = ∑ k : Fin 128, x0 (ix2 p k) * x1 (ix2 k q) := by
  unfold k2_pay1
  rw [shapeCast_self]
  refine (Ideal.matmul_constant_zero_apply dot_S512x128_S128x4096_S512x4096_1_0_0_1_n_n none x0 x1 (ix2 p q)).trans ?_
  rw [← Equiv.sum_comp (ValueIdx.contrEquiv1 dot_S512x128_S128x4096_S512x4096_1_0_0_1_n_n 128 rfl rfl).symm]
  refine Finset.sum_congr rfl fun k _ => ?_
  have hk := ValueIdx.contrEquiv1_symm_val dot_S512x128_S128x4096_S512x4096_1_0_0_1_n_n 128 rfl rfl k
  have el : dot_S512x128_S128x4096_S512x4096_1_0_0_1_n_n.lhsIdx (ix2 p q) ((ValueIdx.contrEquiv1 dot_S512x128_S128x4096_S512x4096_1_0_0_1_n_n 128 rfl rfl).symm k) = ix2 p k :=
    funext fun a => Fin.ext (by
      match a with
      | ⟨0, _⟩ => exact lhs_row _ _
      | ⟨1, _⟩ => exact (dot_S512x128_S128x4096_S512x4096_1_0_0_1_n_n.lhsIdx_val_of_single rfl _ _).trans hk)
  have er : dot_S512x128_S128x4096_S512x4096_1_0_0_1_n_n.rhsIdx (ix2 p q) ((ValueIdx.contrEquiv1 dot_S512x128_S128x4096_S512x4096_1_0_0_1_n_n 128 rfl rfl).symm k) = ix2 k q :=
    funext fun a => Fin.ext (by
      match a with
      | ⟨0, _⟩ => exact (dot_S512x128_S128x4096_S512x4096_1_0_0_1_n_n.rhsIdx_val_of_single rfl _ _).trans hk
      | ⟨1, _⟩ => exact rhs_col _ _)
  rw [el, er]

/-- The body's load of the left 128 columns of its 512×256 block, at (p, k): the block at (p, k). -/
theorem left_cols (X : Vec Ideal S512x256 .f32) (p : Fin 512) (k : Fin 128) :
    View.ld X r2_0 (ix2 p k) = X (ix2 p ⟨k.val, by have := k.isLt; omega⟩) := by
  show X (r2_0.idx (ix2 p k)) = _
  refine congrArg X (funext fun a => Fin.ext ?_)
  match a with
  | ⟨0, _⟩ => show 0 + 1 * p.val = p.val; omega
  | ⟨1, _⟩ => show 0 + 1 * k.val = k.val; omega

variable (V : (c : Dev nD) → (b : Ref sig .tc) → Buf (Elt Ideal) ((c : Thread nD τ).loc b))

/-- The array the call leaves: (left 128 columns of AB) · W_enc, over the two arrays as the call finds them. -/
abbrev XL (c : Dev nD) : S4096x4096.Idx → EReal :=
  prod (cols 128 0 (by decide) (V c main_call0_v1 : S4096x256.Idx → EReal)) (V c main_arg2 : S128x4096.Idx → EReal)

/-- The printed index maps over the eight grid points: AB's and x_latent's blocks move down with the point, W_enc's stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p, column k of AB's block at point t is AB at row 512t + p, column k. -/
theorem ab_block (c : Dev nD) (t : Fin cfg2.N) (p : Fin 512) (k : Fin 256) (i : S4096x256.Idx)
    (h0 : (i 0).val = t.val * 512 + p.val) (h1 : (i 1).val = k.val) :
    (iblk2 V c 0 t : Vec Ideal S512x256 .f32) (ix2 p k) = (V c main_call0_v1 : S4096x256.Idx → EReal) i := by
  obtain ⟨e0, e1, -, -, -, -⟩ := idx_facts t
  unfold iblk2
  rw [View.read_apply]
  show (V c main_call0_v1 : S4096x256.Idx → EReal) _ = _
  refine congrArg _ (funext fun a => Fin.ext ?_)
  match a with
  | ⟨0, _⟩ => show win2_0.index t (0 : Fin 2) * 512 + 1 * p.val = (i 0).val; omega
  | ⟨1, _⟩ => show win2_0.index t (1 : Fin 2) * 256 + 1 * k.val = (i 1).val; omega

/-- W_enc's block at every point is W_enc. -/
theorem w_block (c : Dev nD) (t : Fin cfg2.N) (k : Fin 128) (q : Fin 4096) :
    (iblk2 V c 1 t : Vec Ideal S128x4096 .f32) (ix2 k q) = (V c main_arg2 : S128x4096.Idx → EReal) (ix2 k q) := by
  obtain ⟨-, -, e2, e3, -, -⟩ := idx_facts t
  unfold iblk2
  rw [View.read_apply]
  show (V c main_arg2 : S128x4096.Idx → EReal) _ = _
  refine congrArg _ (funext fun a => Fin.ext ?_)
  match a with
  | ⟨0, _⟩ => show win2_1.index t (0 : Fin 2) * 128 + 1 * k.val = k.val; omega
  | ⟨1, _⟩ => show win2_1.index t (1 : Fin 2) * 4096 + 1 * q.val = q.val; omega

/-- What point t writes back is block t of (left columns of AB) · W_enc. -/
theorem flushed_eq (c : Dev nD) (t : Fin cfg2.N) :
    (dat2 V c).flushed 2 t = ((cfg2.win 2).blk t).view.read (Elt Ideal) (XL V c) := by
  show (cfg2.win 2).cut (grid2.coords t) ((dat2 V c).after 2 t) = _
  rw [after2_2]
  unfold out2_2
  rw [View.canon_unit_zero hz]
  simp only [View.ld_unit_zero (S := S128x4096) hz]
  obtain ⟨-, -, -, -, e4, e5⟩ := idx_facts t
  funext y
  obtain ⟨p, q, rfl⟩ : ∃ (p : Fin 512) (q : Fin 4096), y = ix2 p q := ⟨y 0, y 1, eq_ix2 y⟩
  rw [View.read_apply]
  show k2_pay1 (F := Ideal) (View.ld (iblk2 V c 0 t) r2_0) (iblk2 V c 1 t) (ix2 p q) = XL V c (((cfg2.win 2).blk t).view.emb (ix2 p q))
  rw [pay_apply]
  show _ = prod _ _ _
  rw [prod_eq]
  refine Finset.sum_congr rfl fun k _ => ?_
  rw [left_cols, ab_block V c t p ⟨k.val, by have := k.isLt; omega⟩
      (ix2 ((((cfg2.win 2).blk t).view.emb (ix2 p q)) 0) ⟨0 + k.val, by have := k.isLt; omega⟩)
      (by show win2_2.index t (0 : Fin 2) * 512 + 1 * p.val = _; omega) (by show 0 + k.val = k.val; omega), w_block V c t k q]
  refine congrArg _ (congrArg _ (funext fun a => Fin.ext ?_))
  match a with
  | ⟨0, _⟩ => rfl
  | ⟨1, _⟩ => show q.val = win2_2.index t (1 : Fin 2) * 4096 + 1 * q.val; omega

/-- An index of x_latent lies in point t's block iff, on each axis, its coordinate is among the block's. -/
theorem mem_blk (t : Fin cfg2.N) (i : S4096x4096.Idx) :
    i ∈ ((cfg2.win 2).blk t).view.set ↔ ∀ a : Fin 2, win2_2.index t a * S512x4096.size a ≤ (i a).val
      ∧ (i a).val < win2_2.index t a * S512x4096.size a + S512x4096.size a := by
  show i ∈ ((View.whole main_v0_0).slice (win2_2.rect t)).set ↔ _
  rw [View.set_slice_whole, Rect.mem_set_unit]
  exact Iff.rfl

/-- Row r of x_latent is written back by point r / 512: the eight blocks tile the array. -/
theorem cover (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  have hN : cfg2.N = 8 := N_2
  refine ⟨⟨(i 0).val / 512, by rw [hN]; omega⟩, flush2_2 _, ?_⟩
  obtain ⟨-, -, -, -, e4, e5⟩ := idx_facts ⟨(i 0).val / 512, by rw [hN]; omega⟩
  rw [mem_blk]
  intro a
  match a with
  | ⟨0, _⟩ =>
    show win2_2.index _ (0 : Fin 2) * 512 ≤ (i 0).val ∧ (i 0).val < win2_2.index _ (0 : Fin 2) * 512 + 512
    rw [e4]; show (i 0).val / 512 * 512 ≤ (i 0).val ∧ (i 0).val < (i 0).val / 512 * 512 + 512; omega
  | ⟨1, _⟩ =>
    show win2_2.index _ (1 : Fin 2) * 4096 ≤ (i 1).val ∧ (i 1).val < win2_2.index _ (1 : Fin 2) * 4096 + 4096
    rw [e5]; omega

/-- After its eight points the call's output array is (left 128 columns of AB) · W_enc. -/
theorem arr_eq (c : Dev nD) : (dat2 V c).arrAt 2 cfg2.N = XL V c :=
  (dat2 V c).arrAt_eq_of_cover 2 (XL V c) (fun t _ => flushed_eq V c t) cover

end Cert.KernelIdeal.Call2

end
-- ==== Proof.KernelEntries.lean ====
/-
  The idealized kernel's two results as products of the argument arrays.

  The first call finds adj as launched and B = [feat | W_dec] as the host's concatenation left it, and leaves
  AB = adj · B. The second and third calls find AB as the first left it and W_enc as launched (no call writes an
  array it only reads), and leave x_recon = A · (W_enc · Y) and x_latent = A · W_enc, where A and Y are the left and
  right 128 columns of AB. The columns of a product are the product with the columns, and the two halves of the
  concatenation are feat and W_dec, so A = adj · feat and Y = adj · W_dec:

      x_latent = (adj · feat) · W_enc          x_recon = (adj · feat) · (W_enc · (adj · W_dec))

  on the extended reals, for any argument arrays.
-/
import proofs.«117277_g65627100283412_cont_sun_m_691_13_alg».proof.Proof.Block0
import proofs.«117277_g65627100283412_cont_sun_m_691_13_alg».proof.Proof.Block1
import proofs.«117277_g65627100283412_cont_sun_m_691_13_alg».proof.Proof.Block2
import proofs.«117277_g65627100283412_cont_sun_m_691_13_alg».proof.Proof.LibMatrixProd
import Idealize.ShloMosaic.Lib.StableHlo.Run

set_option maxRecDepth 16384

noncomputable section

namespace Cert.KernelIdeal.Chain

open Cert.KernelIdeal Cert.KernelIdeal.Gen Cert.Matrices
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four argument arrays as launched. -/
abbrev feat (c : Dev nD) : S4096x128.Idx → EReal := m ((c.tc : Thread nD τ).loc main_arg0)
abbrev adj (c : Dev nD) : S4096x4096.Idx → EReal := m ((c.tc : Thread nD τ).loc main_arg1)
abbrev wenc (c : Dev nD) : S128x4096.Idx → EReal := m ((c.tc : Thread nD τ).loc main_arg2)
abbrev wdec (c : Dev nD) : S4096x128.Idx → EReal := m ((c.tc : Thread nD τ).loc main_arg3)

/-- The host's concatenation [feat | W_dec]. -/
abbrev bcat (c : Dev nD) : S4096x256.Idx → EReal :=
  concatenate S4096x256 1 [⟨S4096x128, feat m c⟩, ⟨S4096x128, wdec m c⟩] Facts₀.concatenates_S4096x128_S4096x128_S4096x256_d1

/-! ## What the first call finds -/

theorem entry0_adj (c : Dev nD) : V1 m ρ c main_arg1 = adj m c :=
  (StableHlo.after_of_forall_not_mem (b := Proc.devRef .tc main_arg1) _ _ (List.forall_iff_forall_mem.mp (by
    simp only [hostOps0, List.Forall, StableHlo.binary_writes, Finset.mem_singleton]
    exact StableHlo.devRef_ne_of_ne (by decide)))).trans rfl

theorem entry0_bcat (c : Dev nD) : V1 m ρ c main_call0_v0 = bcat m c := by
  show StableHlo.after hostOps0 (W0 m ρ c) (Proc.devRef .tc main_call0_v0) = _
  after_results
  rfl

/-! ## What the first call leaves, and what the later calls find -/

/-- AB = adj · [feat | W_dec]. -/
theorem ab_eq (c : Dev nD) : V2 m ρ c main_call0_v1 = prod (adj m c) (bcat m c) := by
  refine ((W2_arr m ρ c 2).trans (Call0.arr_eq (V1 m ρ) c)).trans ?_
  show prod (V1 m ρ c main_arg1) (V1 m ρ c main_call0_v0) = _
  rw [entry0_adj, entry0_bcat]

/-- W_enc reaches the second call as launched: neither the concatenation nor the first call writes it. -/
theorem entry1_wenc (c : Dev nD) : V2 m ρ c main_arg2 = wenc m c :=
  (W2_of_ne m ρ c main_arg2 (by decide)).trans
    ((StableHlo.after_of_forall_not_mem (b := Proc.devRef .tc main_arg2) _ _ (List.forall_iff_forall_mem.mp (by
      simp only [hostOps0, List.Forall, StableHlo.binary_writes, Finset.mem_singleton]
      exact StableHlo.devRef_ne_of_ne (by decide)))).trans rfl)

/-- The second call only reads AB and W_enc: the third finds them as the second did. -/
theorem entry2_ab (c : Dev nD) : V3 m ρ c main_call0_v1 = V2 m ρ c main_call0_v1 :=
  (W3_arr m ρ c 0).trans (((dat1 (V2 m ρ) c).arrAt_in 0 rfl _).trans (A_eq1 (V2 m ρ) c 0))
theorem entry2_wenc (c : Dev nD) : V3 m ρ c main_arg2 = V2 m ρ c main_arg2 :=
  (W3_arr m ρ c 1).trans (((dat1 (V2 m ρ) c).arrAt_in 1 rfl _).trans (A_eq1 (V2 m ρ) c 1))

/-! ## The two results at the last boundary -/

/-- x_recon, as the second call left it (the third does not touch it). -/
theorem recon_eq (c : Dev nD) : W4 m ρ c (Proc.devRef .tc main_v0_1)
    = prod (cols 128 0 (by decide) (prod (adj m c) (bcat m c)))
        (prod (wenc m c) (cols 128 128 (by decide) (prod (adj m c) (bcat m c)))) := by
  refine (W4_of_ne m ρ c main_v0_1 (by decide)).trans ?_
  refine ((W3_arr m ρ c 2).trans (Call1.arr_eq (V2 m ρ) c)).trans ?_
  show prod (cols 128 0 _ (V2 m ρ c main_call0_v1)) (prod (V2 m ρ c main_arg2) (cols 128 128 _ (V2 m ρ c main_call0_v1))) = _
  rw [ab_eq, entry1_wenc]

/-- x_latent, as the third call left it. -/
theorem latent_eq (c : Dev nD) : W4 m ρ c (Proc.devRef .tc main_v0_0)
    = prod (cols 128 0 (by decide) (prod (adj m c) (bcat m c))) (wenc m c) := by
  refine ((W4_arr m ρ c 2).trans (Call2.arr_eq (V3 m ρ) c)).trans ?_
  show prod (cols 128 0 _ (V3 m ρ c main_call0_v1)) (V3 m ρ c main_arg2) = _
  rw [entry2_ab, entry2_wenc, ab_eq, entry1_wenc]

/-! ## The halves of the concatenation -/

/-- The left 128 columns of [feat | W_dec] are feat. -/
theorem bcat_left (c : Dev nD) : cols 128 0 (by decide) (bcat m c) = feat m c := by
  funext i
  obtain ⟨p, q, rfl⟩ : ∃ (p : Fin 4096) (q : Fin 128), i = ix2 p q := ⟨i 0, i 1, eq_ix2 i⟩
  rw [cols_apply]
  refine concatenate_pair_apply_left (t := S4096x256) (s₁ := S4096x128) (s₂ := S4096x128) (1 : Fin 2) (feat m c) (wdec m c)
    Facts₀.concatenates_S4096x128_S4096x128_S4096x256_d1 (ix2 p ⟨0 + q.val, by have := q.isLt; omega⟩) rfl (ix2 p q) fun b => ?_
  match b with
  | ⟨0, _⟩ => rfl
  | ⟨1, _⟩ => show q.val = 0 + q.val; omega

/-- The right 128 columns of [feat | W_dec] are W_dec. -/
theorem bcat_right (c : Dev nD) : cols 128 128 (by decide) (bcat m c) = wdec m c := by
  funext i
  obtain ⟨p, q, rfl⟩ : ∃ (p : Fin 4096) (q : Fin 128), i = ix2 p q := ⟨i 0, i 1, eq_ix2 i⟩
  rw [cols_apply]
  refine concatenate_pair_apply_right (t := S4096x256) (s₁ := S4096x128) (s₂ := S4096x128) (1 : Fin 2) (feat m c) (wdec m c)
    Facts₀.concatenates_S4096x128_S4096x128_S4096x256_d1 (ix2 p ⟨128 + q.val, by have := q.isLt; omega⟩) rfl rfl (ix2 p q)
    (fun b hb => ?_) ?_
  · match b with
    | ⟨0, _⟩ => rfl
    | ⟨1, _⟩ => exact absurd rfl hb
  · show q.val + 128 = 128 + q.val; omega

/-! ## The results as products of the arguments -/

/-- x_latent = (adj · feat) · W_enc. -/
theorem latent (c : Dev nD) : W4 m ρ c (Proc.devRef .tc main_v0_0) = prod (prod (adj m c) (feat m c)) (wenc m c) := by
  rw [latent_eq, cols_prod, bcat_left]

/-- x_recon = (adj · feat) · (W_enc · (adj · W_dec)). -/
theorem recon (c : Dev nD) : W4 m ρ c (Proc.devRef .tc main_v0_1)
    = prod (prod (adj m c) (feat m c)) (prod (wenc m c) (prod (adj m c) (wdec m c))) := by
  rw [recon_eq, cols_prod, cols_prod, bcat_left, bcat_right]

end Cert.KernelIdeal.Chain

end
-- ==== Proof.RefEntries.lean ====
/-
  The reference's two results as products of the argument arrays.

  The reference is four host matrix products: X = feat · W_enc, x_latent = adj · X, Y = adj · W_dec and
  x_recon = x_latent · Y. On the extended reals a host product's entry (p, q) is the sum over the contracted
  coordinate k of left(p, k) · right(k, q), so

      x_latent = adj · (feat · W_enc)          x_recon = (adj · (feat · W_enc)) · (adj · W_dec)

  for any argument arrays.
-/
import proofs.«117277_g65627100283412_cont_sun_m_691_13_alg».proof.Proof.Gen.ReferenceIdeal.Read
import proofs.«117277_g65627100283412_cont_sun_m_691_13_alg».proof.Proof.LibMatrixProd
import Idealize.ShloMosaic.Lib.ValueIdx
import Idealize.ShloMosaic.PureOps.Ideal.Laws

noncomputable section

namespace Cert.ReferenceIdeal.Entries

open Cert.ReferenceIdeal Cert.ReferenceIdeal.Read Cert.Matrices
open Idealize.ShloMosaic Idealize.ShloMosaic.ValueIdx

/-- X = feat · W_enc. -/
theorem x_eq (feat : S4096x128.Idx → EReal) (wenc : S128x4096.Idx → EReal) :
    val_main_v0 (F := Ideal) feat wenc = prod feat wenc := by
  funext i
  rw [val_main_v0_apply, prod_eq]
  refine Finset.sum_congr rfl fun k _ => ?_
  have hl : lidx_main_v0 i k = ix2 (i 0) k := funext fun a => Fin.ext (by match a with | ⟨0, _⟩ => rfl | ⟨1, _⟩ => rfl)
  have hr : ridx_main_v0 i k = ix2 k (i 1) := funext fun a => Fin.ext (by match a with | ⟨0, _⟩ => rfl | ⟨1, _⟩ => rfl)
  rw [hl, hr]
  rfl

/-- x_latent = adj · (feat · W_enc). -/
theorem latent (feat : S4096x128.Idx → EReal) (adj : S4096x4096.Idx → EReal) (wenc : S128x4096.Idx → EReal) :
    val_main_v1 (F := Ideal) feat adj wenc = prod adj (prod feat wenc) := by
  funext i
  rw [val_main_v1_apply, prod_eq, x_eq]
  refine Finset.sum_congr rfl fun k _ => ?_
  have hl : lidx_main_v1 i k = ix2 (i 0) k := funext fun a => Fin.ext (by match a with | ⟨0, _⟩ => rfl | ⟨1, _⟩ => rfl)
  have hr : ridx_main_v1 i k = ix2 k (i 1) := funext fun a => Fin.ext (by match a with | ⟨0, _⟩ => rfl | ⟨1, _⟩ => rfl)
  rw [hl, hr]
  rfl

/-- Y = adj · W_dec. -/
theorem y_eq (adj : S4096x4096.Idx → EReal) (wdec : S4096x128.Idx → EReal) :
    val_main_v2 (F := Ideal) adj wdec = prod adj wdec := by
  funext i
  rw [val_main_v2_apply, prod_eq]
  refine Finset.sum_congr rfl fun k _ => ?_
  have hl : lidx_main_v2 i k = ix2 (i 0) k := funext fun a => Fin.ext (by match a with | ⟨0, _⟩ => rfl | ⟨1, _⟩ => rfl)
  have hr : ridx_main_v2 i k = ix2 k (i 1) := funext fun a => Fin.ext (by match a with | ⟨0, _⟩ => rfl | ⟨1, _⟩ => rfl)
  rw [hl, hr]
  rfl

/-- x_recon = (adj · (feat · W_enc)) · (adj · W_dec). -/
theorem recon (feat : S4096x128.Idx → EReal) (adj : S4096x4096.Idx → EReal) (wenc : S128x4096.Idx → EReal)
    (wdec : S4096x128.Idx → EReal) :
    val_main_v3 (F := Ideal) feat adj wenc wdec = prod (prod adj (prod feat wenc)) (prod adj wdec) := by
  funext i
  rw [val_main_v3_apply, prod_eq, latent, y_eq]
  refine Finset.sum_congr rfl fun k _ => ?_
  have hl : lidx_main_v3 i k = ix2 (i 0) k := funext fun a => Fin.ext (by match a with | ⟨0, _⟩ => rfl | ⟨1, _⟩ => rfl)
  have hr : ridx_main_v3 i k = ix2 k (i 1) := funext fun a => Fin.ext (by match a with | ⟨0, _⟩ => rfl | ⟨1, _⟩ => rfl)
  rw [hl, hr]
  rfl

end Cert.ReferenceIdeal.Entries

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteArgs.lean ====
/-
  The precondition gives real entries.

  `finite_inputs` tests each of the four arguments by all(|x| < +inf) and joins the four bits by `and`. When
  the result is 1 each bit is 1, each reduction's bit 1 means every entry passes its test, and an extended real
  whose absolute value is below +inf is a real number: all four arrays are real-valued.
-/
import proofs.«117277_g65627100283412_cont_sun_m_691_13_alg».proof.Pre_finite_inputs
import proofs.«117277_g65627100283412_cont_sun_m_691_13_alg».proof.Proof.LibFiniteEntry
import proofs.«117277_g65627100283412_cont_sun_m_691_13_alg».proof.Proof.LibMatrixProd
import Idealize.ShloMosaic.Lib.ReduceAll
import Idealize.ShloMosaic.Lib.Affine
import Idealize.ShloMosaic.Lib.ValueIdx

noncomputable section

namespace Cert.Pre_finite_inputs.Real

open Cert.Pre_finite_inputs Cert.Pre_finite_inputs.Facts Cert.Matrices Cert.Lib.FiniteEntry
open Idealize.ShloMosaic

variable [Facts]

/-- Under the precondition every entry of every argument is a real number. -/
theorem real_args (a0 : FVec Ideal S4096x128 .f32) (a1 : FVec Ideal S4096x4096 .f32) (a2 : FVec Ideal S128x4096 .f32)
    (a3 : FVec Ideal S4096x128 .f32) (h : fn (F := Ideal) a0 a1 a2 a3 = fun _ => 1#1) :
    IsReal (s := S4096x128) a0 ∧ IsReal (s := S4096x4096) a1 ∧ IsReal (s := S128x4096) a2 ∧ IsReal (s := S4096x128) a3 := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  refine ⟨fun i => ?_, fun i => ?_, fun i => ?_, fun i => ?_⟩
  · exact entry_real bcast_S_S4096x128 a0 i (Host.reduce_andi_all _ _ _ _ _ h0' i)
  · exact entry_real bcast_S_S4096x4096 a1 i (Host.reduce_andi_all _ _ _ _ _ h1 i)
  · exact entry_real bcast_S_S128x4096 a2 i (Host.reduce_andi_all _ _ _ _ _ h2 i)
  · exact entry_real bcast_S_S4096x128 a3 i (Host.reduce_andi_all _ _ _ _ _ h3 i)

end Cert.Pre_finite_inputs.Real

end
-- ==== Proof.lean ====
/-
  The kernel computes the two results of a graph auto-encoder layer in a reassociated form. With
  A = adj · feat and Y = adj · W_dec (both read off one product AB = adj · [feat | W_dec]),

      kernel:     x_latent = A · W_enc                      x_recon = A · (W_enc · Y)
      reference:  x_latent = adj · (feat · W_enc)           x_recon = (adj · (feat · W_enc)) · Y

  On the extended reals the two sides of each pair differ by the associativity of the matrix product, which
  moves a factor across a sum and so holds only away from the infinities. The precondition makes every
  argument entry a real number; products of real-valued arrays are real-valued, and for such arrays
  (x · y) · z = x · (y · z). That is the whole equivalence:

      (adj · feat) · W_enc = adj · (feat · W_enc),
      (adj · feat) · (W_enc · Y) = ((adj · feat) · W_enc) · Y = (adj · (feat · W_enc)) · Y.

  The kernel's values come from its run read at the two result buffers (Proof/OutputRun.lean), each pallas_call's
  output array as one product (Proof/Block0.lean, Block1.lean, Block2.lean) and the chain of buffer contents back to
  the arguments (Proof/KernelEntries.lean); the reference's from its run read product by product
  (Proof/RefEntries.lean); the law and the real entries from Proof/LibMatrixProd.lean and Proof/FiniteArgs.lean (over Proof/LibFiniteEntry.lean). The
  three frames are the programs' runs with the results dropped, and the idealization rewrote nothing.
-/
import proofs.«117277_g65627100283412_cont_sun_m_691_13_alg».proof.Defs
import proofs.«117277_g65627100283412_cont_sun_m_691_13_alg».proof.Proof.Gen.Kernel
import proofs.«117277_g65627100283412_cont_sun_m_691_13_alg».proof.Proof.Gen.Kernel.Frame
import proofs.«117277_g65627100283412_cont_sun_m_691_13_alg».proof.Proof.Gen.KernelIdeal
import proofs.«117277_g65627100283412_cont_sun_m_691_13_alg».proof.Proof.Gen.KernelIdeal.Frame
import proofs.«117277_g65627100283412_cont_sun_m_691_13_alg».proof.Proof.Gen.ReferenceIdeal
import proofs.«117277_g65627100283412_cont_sun_m_691_13_alg».proof.Proof.Gen.ReferenceIdeal.Run
import proofs.«117277_g65627100283412_cont_sun_m_691_13_alg».proof.Proof.Gen.ReferenceIdeal.Read
import proofs.«117277_g65627100283412_cont_sun_m_691_13_alg».proof.Proof.Gen.Pre_finite_inputs
import proofs.«117277_g65627100283412_cont_sun_m_691_13_alg».proof.Proof.OutputRun
import proofs.«117277_g65627100283412_cont_sun_m_691_13_alg».proof.Proof.KernelEntries
import proofs.«117277_g65627100283412_cont_sun_m_691_13_alg».proof.Proof.RefEntries
import proofs.«117277_g65627100283412_cont_sun_m_691_13_alg».proof.Proof.LibMatrixProd
import proofs.«117277_g65627100283412_cont_sun_m_691_13_alg».proof.Proof.FiniteArgs
import Idealize.ShloMosaic.Adequacy
import Idealize.ShloMosaic.Init

noncomputable section

namespace Cert.Proof

open Idealize.ShloMosaic Idealize.SL.Sem Cert.Matrices

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized. -/
theorem preserves : Cert.preserves_Kernel_KernelIdeal := trivial

/-- Both programs end with x_latent = adj · (feat · W_enc) and x_recon = (adj · (feat · W_enc)) · (adj · W_dec): the
    reference by its own reading, the kernel by associativity over the real entries the precondition gives. -/
theorem algebraic : Cert.algebraic_KernelIdeal_ReferenceIdeal := by
  intro m ρ m' ρ' hpre hagree
  open Cert.KernelIdeal.Chain in
  refine ⟨fun c => prod (adj m c) (prod (feat m c) (wenc m c)),
    fun c => prod (prod (adj m c) (prod (feat m c) (wenc m c))) (prod (adj m c) (wdec m c)), ?_, ?_⟩
  · refine (θ_run Cert.KernelIdeal.defs _ _).mono (fun r h c => ?_) (Cert.KernelIdeal.Out.run_results (F := Ideal) m ρ)
    obtain ⟨hf, ha, he, hd⟩ := Cert.Pre_finite_inputs.Real.real_args _ _ _ _ (hpre c)
    refine ⟨(h c).1.trans ((Cert.KernelIdeal.Chain.latent m ρ c).trans (prod_assoc ha hf he)), (h c).2.1.trans ?_, (h c).2.2⟩
    refine (Cert.KernelIdeal.Chain.recon m ρ c).trans ?_
    exact (prod_assoc (prod_isReal ha hf) he (prod_isReal ha hd)).symm.trans
      (congrArg (fun z => prod z (prod (adj m c) (wdec m c))) (prod_assoc ha hf he))
  · refine (θ_run Cert.ReferenceIdeal.defs _ _).mono (fun r h c => ?_) (Cert.ReferenceIdeal.Value.run (F := Ideal) m' ρ')
    obtain ⟨e0, e1, e2, e3⟩ := hagree c
    refine ⟨(h c).1.trans ?_, (h c).2.1.trans ?_, (h c).2.2⟩
    · rw [Cert.ReferenceIdeal.Read.val_main_v1_eq, e0, e1, e2]
      exact Cert.ReferenceIdeal.Entries.latent _ _ _
    · rw [Cert.ReferenceIdeal.Read.val_main_v3_eq, e0, e1, e2, e3]
      exact Cert.ReferenceIdeal.Entries.recon _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
